-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x64x64 : Shape := ⟨4, ![256, 128, 64, 64]⟩
abbrev S_ : Shape := ⟨0, ![]⟩

class Facts : Prop where
  bcast_S_S256x128x64x64 : S_.BroadcastsInDim S256x128x64x64 (![] : Fin 0 → Fin S256x128x64x64.rank)
  reducesTo_S256x128x64x64_S_d0_1_2_3 : S256x128x64x64.ReducesTo [0, 1, 2, 3] S_
  h_S_ : 0 < S_.numel

variable [Facts]

def fn {F : FTy → Type} [FloatOps F] (main_arg0 : FVec F S256x128x64x64 .f32) : IVec S_ 1 :=
  let main_v0 : FVec F S256x128x64x64 .f32 := Host.absf main_arg0
  let main_cst : FVec F S_ .f32 := constant S_ .f32 0x7F800000#32
  let main_v1 : FVec F S256x128x64x64 .f32 := broadcastInDim S256x128x64x64 ![] bcast_S_S256x128x64x64 main_cst
  let main_v2 : IVec S256x128x64x64 1 := cmpf .olt main_v0 main_v1
  let main_c : IVec S_ 1 := constantI S_ 1 1#1
  let main_v3 : IVec S_ 1 := (fun x v => Host.reduce IntOp.andi x v reducesTo_S256x128x64x64_S_d0_1_2_3 h_S_) main_v2 main_c
  main_v3
-- ==== Kernel.lean ====
abbrev S256x128x64x64 : Shape := ⟨4, ![256, 128, 64, 64]⟩
abbrev S32x8x128x64x64 : Shape := ⟨5, ![32, 8, 128, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S32x128x64x64 : Shape := ⟨4, ![32, 128, 64, 64]⟩
abbrev S1x8x64x64x64 : Shape := ⟨5, ![1, 8, 64, 64, 64]⟩
abbrev S1x64x64x64 : Shape := ⟨4, ![1, 64, 64, 64]⟩
abbrev S1x1x64x64x64 : Shape := ⟨5, ![1, 1, 64, 64, 64]⟩
abbrev S64x64x64 : Shape := ⟨3, ![64, 64, 64]⟩
abbrev S4096x64 : Shape := ⟨2, ![4096, 64]⟩

abbrev nBuf : Space → Nat
  | .hbm => 13
  | .vmem => 5
  | .smem => 0
  | _ => 0

abbrev bufTy : (tb : Table) → Fin (tcTables nBuf tb) → BufTy
  | .hbm, ⟨0, _⟩ => ⟨S256x128x64x64, .f32⟩
  | .hbm, ⟨1, _⟩ => ⟨S32x8x128x64x64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i1⟩
  | .hbm, ⟨11, _⟩ => ⟨S64x64, .bf16⟩
  | .hbm, ⟨12, _⟩ => ⟨S32x128x64x64, .f32⟩
  | .local _ .vmem, ⟨0, _⟩ => ⟨S1x8x64x64x64, .f32⟩
  | .local _ .vmem, ⟨1, _⟩ => ⟨S1x8x64x64x64, .f32⟩
  | .local _ .vmem, ⟨2, _⟩ => ⟨S64x64, .bf16⟩
  | .local _ .vmem, ⟨3, _⟩ => ⟨S1x64x64x64, .f32⟩
  | .local _ .vmem, ⟨4, _⟩ => ⟨S1x64x64x64, .f32⟩
  | _, _ => ⟨S256x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S256x128x64x64_S32x8x128x64x64 : S256x128x64x64.ShapeCasts S32x8x128x64x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x8x64x64x64_S1x1x64x64x64_0_0_0_0_0 : ∀ a, (![0, 0, 0, 0, 0] : Fin 5 → Nat) a + S1x1x64x64x64.size a ≤ S1x8x64x64x64.size a
  h_S1x1x64x64x64 : 0 < S1x1x64x64x64.numel
  shapeCasts_S1x1x64x64x64_S64x64x64 : S1x1x64x64x64.ShapeCasts S64x64x64
  inb_S1x8x64x64x64_S1x1x64x64x64_0_1_0_0_0 : ∀ a, (![0, 1, 0, 0, 0] : Fin 5 → Nat) a + S1x1x64x64x64.size a ≤ S1x8x64x64x64.size a
  inb_S1x8x64x64x64_S1x1x64x64x64_0_2_0_0_0 : ∀ a, (![0, 2, 0, 0, 0] : Fin 5 → Nat) a + S1x1x64x64x64.size a ≤ S1x8x64x64x64.size a
  inb_S1x8x64x64x64_S1x1x64x64x64_0_3_0_0_0 : ∀ a, (![0, 3, 0, 0, 0] : Fin 5 → Nat) a + S1x1x64x64x64.size a ≤ S1x8x64x64x64.size a
  inb_S1x8x64x64x64_S1x1x64x64x64_0_4_0_0_0 : ∀ a, (![0, 4, 0, 0, 0] : Fin 5 → Nat) a + S1x1x64x64x64.size a ≤ S1x8x64x64x64.size a
  inb_S1x8x64x64x64_S1x1x64x64x64_0_5_0_0_0 : ∀ a, (![0, 5, 0, 0, 0] : Fin 5 → Nat) a + S1x1x64x64x64.size a ≤ S1x8x64x64x64.size a
  inb_S1x8x64x64x64_S1x1x64x64x64_0_6_0_0_0 : ∀ a, (![0, 6, 0, 0, 0] : Fin 5 → Nat) a + S1x1x64x64x64.size a ≤ S1x8x64x64x64.size a
  inb_S1x8x64x64x64_S1x1x64x64x64_0_7_0_0_0 : ∀ a, (![0, 7, 0, 0, 0] : Fin 5 → Nat) a + S1x1x64x64x64.size a ≤ S1x8x64x64x64.size a
  shapeCasts_S64x64x64_S4096x64 : S64x64x64.ShapeCasts S4096x64
  bitsLt_bf16_f32 : FTy.bits .bf16 < FTy.bits .f32
  shapeCasts_S4096x64_S64x64x64 : S4096x64.ShapeCasts S64x64x64
  transposes_S64x64x64_p0_2_1_S64x64x64 : S64x64x64.Transposes [0, 2, 1] S64x64x64
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S1x64x64x64 : S64x64x64.ShapeCasts S1x64x64x64
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x64x64.size a ≤ S32x8x128x64x64.size a
  hwx0_0 : ∀ i : grid0.Coords, EltTy.bits .f32 = 32 ∨ (Rect.block (s := S32x8x128x64x64) S1x8x64x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S32x128x64x64.size a
  hwx0_2 : ∀ i : grid0.Coords, EltTy.bits .f32 = 32 ∨ (Rect.block (s := S32x128x64x64) S1x64x64x64.size (cc0_transform_2 i) (hinb0_2 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S1x8x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x128x64x64 : Shape := ⟨4, ![256, 128, 64, 64]⟩
abbrev S32x8x128x64x64 : Shape := ⟨5, ![32, 8, 128, 64, 64]⟩
abbrev S32x1x128x64x64 : Shape := ⟨5, ![32, 1, 128, 64, 64]⟩
abbrev S32x128x64x64 : Shape := ⟨4, ![32, 128, 64, 64]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S256x128x64x64, .f32⟩
  | .hbm, ⟨1, _⟩ => ⟨S32x8x128x64x64, .f32⟩
  | .hbm, ⟨2, _⟩ => ⟨S32x1x128x64x64, .f32⟩
  | .hbm, ⟨3, _⟩ => ⟨S32x128x64x64, .f32⟩
  | .hbm, ⟨4, _⟩ => ⟨S32x1x128x64x64, .f32⟩
  | .hbm, ⟨5, _⟩ => ⟨S32x128x64x64, .f32⟩
  | .hbm, ⟨6, _⟩ => ⟨S32x128x64x64, .f32⟩
  | .hbm, ⟨7, _⟩ => ⟨S32x128x64x64, .f32⟩
  | .hbm, ⟨8, _⟩ => ⟨S32x128x64x64, .f32⟩
  | .hbm, ⟨9, _⟩ => ⟨S32x1x128x64x64, .f32⟩
  | .hbm, ⟨10, _⟩ => ⟨S32x128x64x64, .f32⟩
  | .hbm, ⟨11, _⟩ => ⟨S32x128x64x64, .f32⟩
  | .hbm, ⟨12, _⟩ => ⟨S32x128x64x64, .f32⟩
  | .hbm, ⟨13, _⟩ => ⟨S32x128x64x64, .f32⟩
  | .hbm, ⟨14, _⟩ => ⟨S32x1x128x64x64, .f32⟩
  | .hbm, ⟨15, _⟩ => ⟨S32x128x64x64, .f32⟩
  | .hbm, ⟨16, _⟩ => ⟨S32x128x64x64, .f32⟩
  | .hbm, ⟨17, _⟩ => ⟨S32x128x64x64, .f32⟩
  | .hbm, ⟨18, _⟩ => ⟨S32x128x64x64, .f32⟩
  | .hbm, ⟨19, _⟩ => ⟨S32x1x128x64x64, .f32⟩
  | .hbm, ⟨20, _⟩ => ⟨S32x128x64x64, .f32⟩
  | .hbm, ⟨21, _⟩ => ⟨S32x128x64x64, .f32⟩
  | .hbm, ⟨22, _⟩ => ⟨S32x128x64x64, .f32⟩
  | .hbm, ⟨23, _⟩ => ⟨S32x1x128x64x64, .f32⟩
  | .hbm, ⟨24, _⟩ => ⟨S32x128x64x64, .f32⟩
  | .hbm, ⟨25, _⟩ => ⟨S32x128x64x64, .f32⟩
  | .hbm, ⟨26, _⟩ => ⟨S32x128x64x64, .f32⟩
  | .hbm, ⟨27, _⟩ => ⟨S32x128x64x64, .f32⟩
  | .hbm, ⟨28, _⟩ => ⟨S32x128x64x64, .f32⟩
  | .hbm, ⟨29, _⟩ => ⟨S32x1x128x64x64, .f32⟩
  | .hbm, ⟨30, _⟩ => ⟨S32x128x64x64, .f32⟩
  | .hbm, ⟨31, _⟩ => ⟨S32x128x64x64, .f32⟩
  | .hbm, ⟨32, _⟩ => ⟨S32x128x64x64, .f32⟩
  | .hbm, ⟨33, _⟩ => ⟨S32x128x64x64, .f32⟩
  | .hbm, ⟨34, _⟩ => ⟨S32x128x64x64, .f32⟩
  | .hbm, ⟨35, _⟩ => ⟨S32x1x128x64x64, .f32⟩
  | .hbm, ⟨36, _⟩ => ⟨S32x128x64x64, .f32⟩
  | .hbm, ⟨37, _⟩ => ⟨S32x128x64x64, .f32⟩
  | .hbm, ⟨38, _⟩ => ⟨S32x128x64x64, .f32⟩
  | .hbm, ⟨39, _⟩ => ⟨S32x128x64x64, .f32⟩
  | .hbm, ⟨40, _⟩ => ⟨S32x128x64x64, .f32⟩
  | .hbm, ⟨41, _⟩ => ⟨S_, .f32⟩
  | .hbm, ⟨42, _⟩ => ⟨S32x128x64x64, .f32⟩
  | .hbm, ⟨43, _⟩ => ⟨S32x128x64x64, .f32⟩
  | _, _ => ⟨S256x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_v0 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call1_v0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call2_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call5_v0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call7_v0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call9_v0 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]

class Facts₀ : Prop where
  shapeCasts_S256x128x64x64_S32x8x128x64x64 : S256x128x64x64.ShapeCasts S32x8x128x64x64
  slices_S32x8x128x64x64_S32x1x128x64x64_0_0_0_0_0 : S32x8x128x64x64.Slices ![0, 0, 0, 0, 0] S32x1x128x64x64
  shapeCasts_S32x1x128x64x64_S32x128x64x64 : S32x1x128x64x64.ShapeCasts S32x128x64x64
  slices_S32x8x128x64x64_S32x1x128x64x64_0_1_0_0_0 : S32x8x128x64x64.Slices ![0, 1, 0, 0, 0] S32x1x128x64x64
  transposes_S32x128x64x64_S32x128x64x64_0_1_3_2 : S32x128x64x64.Transposes [0, 1, 3, 2] S32x128x64x64
  slices_S32x8x128x64x64_S32x1x128x64x64_0_2_0_0_0 : S32x8x128x64x64.Slices ![0, 2, 0, 0, 0] S32x1x128x64x64
  slices_S32x8x128x64x64_S32x1x128x64x64_0_3_0_0_0 : S32x8x128x64x64.Slices ![0, 3, 0, 0, 0] S32x1x128x64x64
  slices_S32x8x128x64x64_S32x1x128x64x64_0_4_0_0_0 : S32x8x128x64x64.Slices ![0, 4, 0, 0, 0] S32x1x128x64x64
  slices_S32x8x128x64x64_S32x1x128x64x64_0_5_0_0_0 : S32x8x128x64x64.Slices ![0, 5, 0, 0, 0] S32x1x128x64x64
  slices_S32x8x128x64x64_S32x1x128x64x64_0_6_0_0_0 : S32x8x128x64x64.Slices ![0, 6, 0, 0, 0] S32x1x128x64x64
  slices_S32x8x128x64x64_S32x1x128x64x64_0_7_0_0_0 : S32x8x128x64x64.Slices ![0, 7, 0, 0, 0] S32x1x128x64x64
  bcast_S_S32x128x64x64 : S_.BroadcastsInDim S32x128x64x64 (![] : Fin 0 → Fin S32x128x64x64.rank)

variable [Facts₀]

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibExchangeMatmul.lean ====
/-
  Multiplying on the right by the anti-diagonal 0/1 matrix reverses the columns. On the extended reals the
  product a * 0 is 0 for every a, infinite ones included, so of the sum over k of lhs (i, k) * J (k, j) only the
  term k = N - 1 - j is left, and it is lhs (i, N - 1 - j) * 1. No finiteness of the entries is used.
-/
import proofs.«162142_j28226525069638_1_alg».proof.Proof.LibPlainMatmul

noncomputable section

namespace Cert.AntiDiagonal

open Idealize.ShloMosaic Idealize.ShloMosaic.ValueIdx

/-- `J` is the N × N exchange matrix: 1 where row + column = N - 1, 0 elsewhere. -/
def IsExchange (N : Nat) {φ : FTy} (J : FVec Ideal ⟨2, ![N, N]⟩ φ) : Prop :=
  ∀ k w : Fin N, J (ix2 k w) = if k.val + w.val + 1 = N then (1 : EReal) else 0

/-- A sum against one column of the exchange matrix picks the mirrored entry. -/
theorem sum_mul_exchange (N : Nat) {φ : FTy} (J : FVec Ideal ⟨2, ![N, N]⟩ φ) (hJ : IsExchange N J)
    (f : Fin N → EReal) (j : Fin N) : ∑ k : Fin N, f k * J (ix2 k j) = f j.rev := by
  rw [Finset.sum_eq_single j.rev]
  · rw [hJ, if_pos (by rw [Fin.val_rev]; have := j.isLt; omega), mul_one]
  · intro k _ hk
    rw [hJ, if_neg (fun h => hk (Fin.ext (by rw [Fin.val_rev]; omega))), mul_zero]
  · intro h; exact absurd (Finset.mem_univ _) h

/-- Entry (i, j) of `lhs` times the exchange matrix, accumulated into zeros, is `lhs` at (i, N - 1 - j). -/
theorem matmul_exchange_apply (M N : Nat) {φ₁ φ₂ : FTy} (prec : Option ContractPrecision)
    (lhs : FVec Ideal ⟨2, ![M, N]⟩ φ₁) (J : FVec Ideal ⟨2, ![N, N]⟩ φ₂) (hJ : IsExchange N J) (i : Fin M) (j : Fin N) :
    FloatOps.matmul (DotDims.plain M N N) prec lhs J (constant ⟨2, ![M, N]⟩ .f32 0x00000000#32) (ix2 i j)
      = lhs (ix2 i j.rev) := by
  rw [Cert.PlainMatmul.matmul_zero_apply]
  exact sum_mul_exchange N J hJ (fun k => lhs (ix2 i k)) j

end Cert.AntiDiagonal

end
-- ==== Proof.BodyValue.lean ====
/-
  The kernel body's arithmetic, read at one element.

  The body holds eight [64, 64, 64] slabs u0 … u7 (channel, row, column) of one group and the 64 × 64 exchange
  matrix J. It reverses the columns of a slab by flattening it to [4096, 64] and multiplying by J on the right,
  and swaps rows with columns by a transpose of the last two axes; every one of the eight symmetries of the square
  is a word in these two moves. Reading the moves at an element (c, h, w):
    column reversal   a ↦ a (c, h, 63 - w)      transpose   a ↦ a (c, w, h).
  So the body's result at (c, h, w) is the sum, in the body's order, of
    u0 (c, h, w), u1 (c, w, 63-h), u2 (c, 63-h, 63-w), u3 (c, 63-w, h),
    u4 (c, h, 63-w), u5 (c, w, h), u6 (c, 63-h, w), u7 (c, 63-w, 63-h),
  times the literal 1/8.
-/
import proofs.«162142_j28226525069638_1_alg».proof.Proof.Gen.KernelIdeal.Skeleton
import proofs.«162142_j28226525069638_1_alg».proof.Proof.LibExchangeMatmul
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx
open Cert.AntiDiagonal (IsExchange)

/-- The column reversal as the body writes it: flatten to [4096, 64], round to bf16 (the identity on the extended
    reals), multiply by `J` into zeros, and restore the shape. -/
def flipW (J : FVec Ideal S64x64 .bf16) (a : FVec Ideal S64x64x64 .f32) : FVec Ideal S64x64x64 .f32 :=
  shapeCast S64x64x64 (matmul dot_S4096x64_S64x64_S4096x64_1_0_0_1_n_n none
    (truncf .bf16 (shapeCast S4096x64 a shapeCasts_S64x64x64_S4096x64) bitsLt_bf16_f32) J
    (constant S4096x64 .f32 0x00000000#32)) shapeCasts_S4096x64_S64x64x64

/-- The transpose of the last two axes. -/
def swapHW (a : FVec Ideal S64x64x64 .f32) : FVec Ideal S64x64x64 .f32 :=
  transpose S64x64x64 [0, 2, 1] a transposes_S64x64x64_p0_2_1_S64x64x64

/-- The body's result as a word in the two moves. -/
theorem pay10_eq (J : FVec Ideal S64x64 .bf16) (u0 u1 u2 u3 u4 u5 u6 : FVec Ideal S64x64x64 .f32)
    (u7r : Vec Ideal S1x1x64x64x64 .f32) :
    k0_pay10 (F := Ideal) J u0 u1 u2 u3 u4 u5 u6 u7r
      = mulf (addf (addf (addf (addf (addf (addf (addf u0 (swapHW (flipW J u1)))
          (swapHW (flipW J (swapHW (flipW J u2))))) (flipW J (swapHW u3))) (flipW J u4)) (swapHW u5))
          (swapHW (flipW J (swapHW u6))))
          (flipW J (swapHW (flipW J (shapeCast S64x64x64 u7r shapeCasts_S1x1x64x64x64_S64x64x64)))))
        (broadcast S64x64x64 (Scalar.ofBits .f32 0x3E000000#32)) := rfl

/-- The transpose at an element. -/
theorem swapHW_apply (a : FVec Ideal S64x64x64 .f32) (c h w : Fin 64) :
    swapHW a (ix3 c h w) = a (ix3 c w h) := by
  unfold swapHW
  refine transpose_apply _ _ _ (ix3 c h w) (ix3 c w h) fun b => ?_
  match b with
  | ⟨0, _⟩ => rfl
  | ⟨1, _⟩ => rfl
  | ⟨2, _⟩ => rfl

/-- The column reversal at an element. -/
theorem flipW_apply (J : FVec Ideal S64x64 .bf16) (hJ : IsExchange 64 J) (a : FVec Ideal S64x64x64 .f32)
    (c h w : Fin 64) : flipW J a (ix3 c h w) = a (ix3 c h w.rev) := by
  have hr : c.val * 64 + h.val < 4096 := by have := c.isLt; have := h.isLt; omega
  unfold flipW
  refine (shapeCast_apply _ _ (ix3 c h w) (ix2 (⟨c.val * 64 + h.val, hr⟩ : Fin 4096) w) ?_).trans ?_
  · rw [Shape.rowMajor_val_two, Shape.rowMajor_val_three]; rfl
  refine (Cert.AntiDiagonal.matmul_exchange_apply 4096 64 none _ J hJ ⟨c.val * 64 + h.val, hr⟩ w).trans ?_
  show shapeCast S4096x64 a shapeCasts_S64x64x64_S4096x64 (ix2 (⟨c.val * 64 + h.val, hr⟩ : Fin 4096) w.rev) = _
  refine shapeCast_apply _ _ _ (ix3 c h w.rev) ?_
  rw [Shape.rowMajor_val_two, Shape.rowMajor_val_three]; rfl

/-- THE BODY AT AN ELEMENT: the eight slabs read at the eight images of (h, w) under the symmetries of the square,
    added in the body's order, times the literal 1/8. -/
theorem pay10_apply (J : FVec Ideal S64x64 .bf16) (hJ : IsExchange 64 J)
    (u0 u1 u2 u3 u4 u5 u6 : FVec Ideal S64x64x64 .f32) (u7r : Vec Ideal S1x1x64x64x64 .f32) (c h w : Fin 64) :
    k0_pay10 (F := Ideal) J u0 u1 u2 u3 u4 u5 u6 u7r (ix3 c h w)
      = (u0 (ix3 c h w) + u1 (ix3 c w h.rev) + u2 (ix3 c h.rev w.rev) + u3 (ix3 c w.rev h)
          + u4 (ix3 c h w.rev) + u5 (ix3 c w h) + u6 (ix3 c h.rev w)
          + u7r (ix5 (0 : Fin 1) (0 : Fin 1) c w.rev h.rev))
        * Ideal.ofBits .f32 0x3E000000#32 := by
  rw [pay10_eq]
  simp only [mulf_apply, addf_apply, broadcast_apply, swapHW_apply, flipW_apply J hJ]
  have e7 : shapeCast S64x64x64 u7r shapeCasts_S1x1x64x64x64_S64x64x64 (ix3 c w.rev h.rev)
      = u7r (ix5 (0 : Fin 1) (0 : Fin 1) c w.rev h.rev) :=
    shapeCast_apply _ _ _ _ (by
      rw [Shape.rowMajor_val_five, Shape.rowMajor_val_three]
      show ((((0 : Nat) * 1 + 0) * 64 + c.val) * 64 + w.rev.val) * 64 + h.rev.val = (c.val * 64 + w.rev.val) * 64 + h.rev.val
      omega)
  rw [e7]
  rfl

end Cert.KernelIdeal.Body

end
-- ==== Proof.Pooled.lean ====
/-
  The specification: pooling over the eight symmetries of the square.

  The argument is 256 images of 128 channels of 64 × 64 pixels, read as 32 groups of 8. Image k of a group was
  produced by the k-th symmetry of the square (the four rotations, and the four rotations of the mirror image);
  pooling undoes each symmetry and averages. At pixel (h, w) of channel ch of group g the result is one eighth of
    x[8g  ] (h, w)      + x[8g+1] (w, 63-h)  + x[8g+2] (63-h, 63-w) + x[8g+3] (63-w, h)
  + x[8g+4] (h, 63-w)   + x[8g+5] (w, h)     + x[8g+6] (63-h, w)    + x[8g+7] (63-w, 63-h),
  the sum taken left to right. Both programs compute exactly this sum in this order, so no law of the extended
  reals beyond a * 0 = 0, a * 1 = a and x / 8 = x * (1/8) is needed, and none of them asks for finite entries.
-/
import Idealize.ShloMosaic.PureOps.Ideal
import Idealize.ShloMosaic.Lib.ValueIdx

noncomputable section

namespace Cert.D4Pool

open Idealize.ShloMosaic Idealize.ShloMosaic.ValueIdx

/-- Image `k` of group `g` among the 256 images. -/
def img (g : Fin 32) (k : Fin 8) : Fin 256 := ⟨8 * g.val + k.val, by have := g.isLt; have := k.isLt; omega⟩

/-- The eight images of a group, each read where its symmetry sent pixel (h, w), added in order. -/
def orbitSum (x : (⟨4, ![256, 128, 64, 64]⟩ : Shape).Idx → EReal) (g : Fin 32) (ch : Fin 128) (h w : Fin 64) : EReal :=
  x (ix4 (img g 0) ch h w) + x (ix4 (img g 1) ch w h.rev) + x (ix4 (img g 2) ch h.rev w.rev)
    + x (ix4 (img g 3) ch w.rev h) + x (ix4 (img g 4) ch h w.rev) + x (ix4 (img g 5) ch w h)
    + x (ix4 (img g 6) ch h.rev w) + x (ix4 (img g 7) ch w.rev h.rev)

/-- The pooled array: the orbit sum times one eighth. -/
def pooled (x : (⟨4, ![256, 128, 64, 64]⟩ : Shape).Idx → EReal) : (⟨4, ![32, 128, 64, 64]⟩ : Shape).Idx → EReal :=
  fun i => orbitSum x (i 0) (i 1) (i 2) (i 3) * ((1 / 8 : ℝ) : EReal)

/-- The kernel's scale, the f32 pattern of 0.125, is the real 1/8. -/
theorem ofBits_eighth : Ideal.ofBits .f32 0x3E000000#32 = ((1 / 8 : ℝ) : EReal) := by
  simp [Ideal.ofBits, Ideal.ieee, -EReal.coe_mul]; norm_num

/-- The reference's divisor, the f32 pattern of 8.0, is the real 8. -/
theorem ofBits_eight : Ideal.ofBits .f32 0x41000000#32 = ((8 : ℝ) : EReal) := by
  simp [Ideal.ofBits, Ideal.ieee, -EReal.coe_mul]; norm_num

/-- Dividing by the literal 8 is multiplying by one eighth, on every extended real. -/
theorem div_eight (a : EReal) : Ideal.div a (Ideal.ofBits .f32 0x41000000#32) = a * ((1 / 8 : ℝ) : EReal) := by
  rw [ofBits_eight, Ideal.div_coe (by norm_num : (8 : ℝ) ≠ 0)]

end Cert.D4Pool

end
-- ==== Proof.KernelValue.lean ====
/-
  The kernel's result array is the pooled array.

  The grid has a point per (group, half of the channels). At a point the body is handed the eight images of the
  group restricted to 64 channels (one block [1, 8, 64, 64, 64] of the regrouped argument) and the 64 × 64 table the
  host built from two iotas, their sum compared with 63: the exchange matrix. By the body's value at an element
  the block it writes back is the pooled array restricted to that group and those channels, and the 64 blocks tile
  the result.
-/
import proofs.«162142_j28226525069638_1_alg».proof.Proof.Gen.KernelIdeal.Value
import proofs.«162142_j28226525069638_1_alg».proof.Proof.BodyValue
import proofs.«162142_j28226525069638_1_alg».proof.Proof.Pooled
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo
open Cert.D4Pool
open Cert.AntiDiagonal (IsExchange)

variable (m : (ℓ : Loc nD τ sig) → Buf (Elt Ideal) ℓ) (ρ : Dev nD → PrngReg)

/-! ## The table the host builds is the exchange matrix -/

/-- The host's table: row index plus column index compared with 63, as 0 or 1. -/
def hostJ : FVec Ideal S64x64 .bf16 :=
  uitofp .bf16 (cmpi .eq
    (addi (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
    (broadcastInDim S64x64 ![] bcast_S_S64x64 (constantI S_ 32 63#32)))

/-- On words: k + w = 63 exactly when the 32-bit sum equals 63 (no wrap below 128). -/
theorem cmp_word : ∀ k w : Fin 64,
    (IntOp.cmpi .eq (IntOp.addi (BitVec.ofNat 32 k.val) (BitVec.ofNat 32 w.val)) 63#32).toNat
      = if k.val + w.val + 1 = 64 then 1 else 0 := by
  decide +kernel

theorem hostJ_exchange : IsExchange 64 (φ := .bf16) hostJ := by
  intro k w
  have e1 : broadcastInDim S64x64 ![0, 1] bcast_S64x1_S64x64_0_1 (broadcastInDim S64x1 ![0] bcast_S64_S64x1_0 (iotaInDim S64 32 0)) (ix2 k w)
      = BitVec.ofNat 32 k.val := by
    refine (broadcastInDim_apply _ _ _ (ix2 k w) (ix2 k (0 : Fin 1)) fun a => ?_).trans ?_
    · match a with
      | ⟨0, _⟩ => rfl
      | ⟨1, _⟩ => rfl
    refine (broadcastInDim_apply _ _ _ (ix2 k (0 : Fin 1)) (ix1 k) fun a => ?_).trans rfl
    match a with
    | ⟨0, _⟩ => rfl
  have e2 : broadcastInDim S64x64 ![0, 1] bcast_S1x64_S64x64_0_1 (broadcastInDim S1x64 ![1] bcast_S64_S1x64_1 (iotaInDim S64 32 0)) (ix2 k w)
      = BitVec.ofNat 32 w.val := by
    refine (broadcastInDim_apply _ _ _ (ix2 k w) (ix2 (0 : Fin 1) w) fun a => ?_).trans ?_
    · match a with
      | ⟨0, _⟩ => rfl
      | ⟨1, _⟩ => rfl
    refine (broadcastInDim_apply _ _ _ (ix2 (0 : Fin 1) w) (ix1 w) fun a => ?_).trans rfl
    match a with
    | ⟨0, _⟩ => rfl
  show (((IntOp.cmpi .eq (IntOp.addi
      (broadcastInDim S64x64 ![0, 1] bcast_S64x1_S64x64_0_1 (broadcastInDim S64x1 ![0] bcast_S64_S64x1_0 (iotaInDim S64 32 0)) (ix2 k w))
      (broadcastInDim S64x64 ![0, 1] bcast_S1x64_S64x64_0_1 (broadcastInDim S1x64 ![1] bcast_S64_S1x64_1 (iotaInDim S64 32 0)) (ix2 k w)))
      63#32).toNat : ℝ) : EReal) = _
  rw [e1, e2, cmp_word k w]
  split_ifs <;> simp

/-! ## The arrays as the region finds them -/

/-- The first window's array is the argument regrouped [256, …] → [32, 8, …]. -/
theorem V_v0 (c : Dev nD) : (V m c main_v0 : S32x8x128x64x64.Idx → EReal)
    = shapeCast S32x8x128x64x64 (m ((c : Thread nD τ).loc main_arg0)) shapeCasts_S256x128x64x64_S32x8x128x64x64 := by
  dsimp only [Gen.V, Gen.hostOps0]; after_results; rfl

/-- The second window's array is the host's table. -/
theorem V_v9 (c : Dev nD) : (V m c main_v9 : S64x64.Idx → EReal) = hostJ := by
  dsimp only [Gen.V, Gen.hostOps0]; after_results; rfl

/-! ## What the body leaves in the output block, over variables -/

/-- Slab 0 of the staged block, read at an element. -/
theorem ld0_apply (x0 : Vec Ideal S1x8x64x64x64 .f32) (a b d : Fin 64) :
    View.ld x0 r0_1 (ix5 (0 : Fin 1) (0 : Fin 1) a b d) = x0 (ix5 (0 : Fin 1) (0 : Fin 8) a b d) := by
  show x0 (r0_1.idx (ix5 (0 : Fin 1) (0 : Fin 1) a b d)) = _
  refine congrArg x0 (funext fun e => Fin.ext ?_)
  match e with
  | ⟨0, _⟩ => show 0 + 1 * 0 = 0; rfl
  | ⟨1, _⟩ => show 0 + 1 * 0 = 0; rfl
  | ⟨2, _⟩ => show 0 + 1 * a.val = a.val; omega
  | ⟨3, _⟩ => show 0 + 1 * b.val = b.val; omega
  | ⟨4, _⟩ => show 0 + 1 * d.val = d.val; omega

/-- Slab 1 of the staged block, read at an element. -/
theorem ld1_apply (x0 : Vec Ideal S1x8x64x64x64 .f32) (a b d : Fin 64) :
    View.ld x0 r0_2 (ix5 (0 : Fin 1) (0 : Fin 1) a b d) = x0 (ix5 (0 : Fin 1) (1 : Fin 8) a b d) := by
  show x0 (r0_2.idx (ix5 (0 : Fin 1) (0 : Fin 1) a b d)) = _
  refine congrArg x0 (funext fun e => Fin.ext ?_)
  match e with
  | ⟨0, _⟩ => show 0 + 1 * 0 = 0; rfl
  | ⟨1, _⟩ => show 1 + 1 * 0 = 1; rfl
  | ⟨2, _⟩ => show 0 + 1 * a.val = a.val; omega
  | ⟨3, _⟩ => show 0 + 1 * b.val = b.val; omega
  | ⟨4, _⟩ => show 0 + 1 * d.val = d.val; omega

/-- Slab 2 of the staged block, read at an element. -/
theorem ld2_apply (x0 : Vec Ideal S1x8x64x64x64 .f32) (a b d : Fin 64) :
    View.ld x0 r0_3 (ix5 (0 : Fin 1) (0 : Fin 1) a b d) = x0 (ix5 (0 : Fin 1) (2 : Fin 8) a b d) := by
  show x0 (r0_3.idx (ix5 (0 : Fin 1) (0 : Fin 1) a b d)) = _
  refine congrArg x0 (funext fun e => Fin.ext ?_)
  match e with
  | ⟨0, _⟩ => show 0 + 1 * 0 = 0; rfl
  | ⟨1, _⟩ => show 2 + 1 * 0 = 2; rfl
  | ⟨2, _⟩ => show 0 + 1 * a.val = a.val; omega
  | ⟨3, _⟩ => show 0 + 1 * b.val = b.val; omega
  | ⟨4, _⟩ => show 0 + 1 * d.val = d.val; omega

/-- Slab 3 of the staged block, read at an element. -/
theorem ld3_apply (x0 : Vec Ideal S1x8x64x64x64 .f32) (a b d : Fin 64) :
    View.ld x0 r0_4 (ix5 (0 : Fin 1) (0 : Fin 1) a b d) = x0 (ix5 (0 : Fin 1) (3 : Fin 8) a b d) := by
  show x0 (r0_4.idx (ix5 (0 : Fin 1) (0 : Fin 1) a b d)) = _
  refine congrArg x0 (funext fun e => Fin.ext ?_)
  match e with
  | ⟨0, _⟩ => show 0 + 1 * 0 = 0; rfl
  | ⟨1, _⟩ => show 3 + 1 * 0 = 3; rfl
  | ⟨2, _⟩ => show 0 + 1 * a.val = a.val; omega
  | ⟨3, _⟩ => show 0 + 1 * b.val = b.val; omega
  | ⟨4, _⟩ => show 0 + 1 * d.val = d.val; omega

/-- Slab 4 of the staged block, read at an element. -/
theorem ld4_apply (x0 : Vec Ideal S1x8x64x64x64 .f32) (a b d : Fin 64) :
    View.ld x0 r0_5 (ix5 (0 : Fin 1) (0 : Fin 1) a b d) = x0 (ix5 (0 : Fin 1) (4 : Fin 8) a b d) := by
  show x0 (r0_5.idx (ix5 (0 : Fin 1) (0 : Fin 1) a b d)) = _
  refine congrArg x0 (funext fun e => Fin.ext ?_)
  match e with
  | ⟨0, _⟩ => show 0 + 1 * 0 = 0; rfl
  | ⟨1, _⟩ => show 4 + 1 * 0 = 4; rfl
  | ⟨2, _⟩ => show 0 + 1 * a.val = a.val; omega
  | ⟨3, _⟩ => show 0 + 1 * b.val = b.val; omega
  | ⟨4, _⟩ => show 0 + 1 * d.val = d.val; omega

/-- Slab 5 of the staged block, read at an element. -/
theorem ld5_apply (x0 : Vec Ideal S1x8x64x64x64 .f32) (a b d : Fin 64) :
    View.ld x0 r0_6 (ix5 (0 : Fin 1) (0 : Fin 1) a b d) = x0 (ix5 (0 : Fin 1) (5 : Fin 8) a b d) := by
  show x0 (r0_6.idx (ix5 (0 : Fin 1) (0 : Fin 1) a b d)) = _
  refine congrArg x0 (funext fun e => Fin.ext ?_)
  match e with
  | ⟨0, _⟩ => show 0 + 1 * 0 = 0; rfl
  | ⟨1, _⟩ => show 5 + 1 * 0 = 5; rfl
  | ⟨2, _⟩ => show 0 + 1 * a.val = a.val; omega
  | ⟨3, _⟩ => show 0 + 1 * b.val = b.val; omega
  | ⟨4, _⟩ => show 0 + 1 * d.val = d.val; omega

/-- Slab 6 of the staged block, read at an element. -/
theorem ld6_apply (x0 : Vec Ideal S1x8x64x64x64 .f32) (a b d : Fin 64) :
    View.ld x0 r0_7 (ix5 (0 : Fin 1) (0 : Fin 1) a b d) = x0 (ix5 (0 : Fin 1) (6 : Fin 8) a b d) := by
  show x0 (r0_7.idx (ix5 (0 : Fin 1) (0 : Fin 1) a b d)) = _
  refine congrArg x0 (funext fun e => Fin.ext ?_)
  match e with
  | ⟨0, _⟩ => show 0 + 1 * 0 = 0; rfl
  | ⟨1, _⟩ => show 6 + 1 * 0 = 6; rfl
  | ⟨2, _⟩ => show 0 + 1 * a.val = a.val; omega
  | ⟨3, _⟩ => show 0 + 1 * b.val = b.val; omega
  | ⟨4, _⟩ => show 0 + 1 * d.val = d.val; omega

/-- Slab 7 of the staged block, read at an element. -/
theorem ld7_apply (x0 : Vec Ideal S1x8x64x64x64 .f32) (a b d : Fin 64) :
    View.ld x0 r0_8 (ix5 (0 : Fin 1) (0 : Fin 1) a b d) = x0 (ix5 (0 : Fin 1) (7 : Fin 8) a b d) := by
  show x0 (r0_8.idx (ix5 (0 : Fin 1) (0 : Fin 1) a b d)) = _
  refine congrArg x0 (funext fun e => Fin.ext ?_)
  match e with
  | ⟨0, _⟩ => show 0 + 1 * 0 = 0; rfl
  | ⟨1, _⟩ => show 7 + 1 * 0 = 7; rfl
  | ⟨2, _⟩ => show 0 + 1 * a.val = a.val; omega
  | ⟨3, _⟩ => show 0 + 1 * b.val = b.val; omega
  | ⟨4, _⟩ => show 0 + 1 * d.val = d.val; omega

/-- The table's block as the body loads it. -/
theorem ldJ_apply (x1 : Vec Ideal S64x64 .bf16) (k w : Fin 64) :
    (View.ld x1 r0_0 : Vec Ideal S64x64 .bf16) (ix2 k w) = x1 (ix2 k w) := by
  show x1 (r0_0.idx (ix2 k w)) = _
  refine congrArg x1 (funext fun e => Fin.ext ?_)
  match e with
  | ⟨0, _⟩ => show 0 + 1 * k.val = k.val; omega
  | ⟨1, _⟩ => show 0 + 1 * w.val = w.val; omega

/-- A [1, 1, 64, 64, 64] load with its unit axes dropped, at an element. -/
theorem drop2_apply (P : Vec Ideal S1x1x64x64x64 .f32) (a b d : Fin 64) :
    shapeCast S64x64x64 P shapeCasts_S1x1x64x64x64_S64x64x64 (ix3 a b d) = P (ix5 (0 : Fin 1) (0 : Fin 1) a b d) := by
  refine shapeCast_apply _ _ _ _ ?_
  rw [Shape.rowMajor_val_five, Shape.rowMajor_val_three]
  show ((((0 : Nat) * 1 + 0) * 64 + a.val) * 64 + b.val) * 64 + d.val = (a.val * 64 + b.val) * 64 + d.val
  omega

/-- THE OUTPUT BLOCK AT AN ELEMENT, for any staged block `x0` of the regrouped argument and any staged exchange
    matrix `x1`: the eight slabs of `x0` read at the eight images of (h, w), added in order, times the literal 1/8. -/
theorem out_apply (x0 : Vec Ideal S1x8x64x64x64 .f32) (x1 : Vec Ideal S64x64 .bf16) (hJ : IsExchange 64 (φ := .bf16) x1)
    (a h w : Fin 64) :
    out0_2 x0 x1 (ix4 (0 : Fin 1) a h w)
      = (x0 (ix5 (0 : Fin 1) (0 : Fin 8) a h w) + x0 (ix5 (0 : Fin 1) (1 : Fin 8) a w h.rev)
          + x0 (ix5 (0 : Fin 1) (2 : Fin 8) a h.rev w.rev) + x0 (ix5 (0 : Fin 1) (3 : Fin 8) a w.rev h)
          + x0 (ix5 (0 : Fin 1) (4 : Fin 8) a h w.rev) + x0 (ix5 (0 : Fin 1) (5 : Fin 8) a w h)
          + x0 (ix5 (0 : Fin 1) (6 : Fin 8) a h.rev w) + x0 (ix5 (0 : Fin 1) (7 : Fin 8) a w.rev h.rev))
        * Ideal.ofBits .f32 0x3E000000#32 := by
  have hJ' : IsExchange 64 (φ := .bf16)
      (shapeCast S64x64 (View.ld x1 r0_0 : Vec Ideal S64x64 .bf16) shapeCasts_S64x64_S64x64) := fun k w => by
    exact (congrFun (shapeCast_self (View.ld x1 r0_0 : Vec Ideal S64x64 .bf16) shapeCasts_S64x64_S64x64) (ix2 k w)).trans
      ((ldJ_apply x1 k w).trans (hJ k w))
  have hy : Cert.KernelIdeal.Value.ix2_0 (ix4 (0 : Fin 1) a h w) = ix3 a h w :=
    funext fun e => Fin.ext (by
      match e with
      | ⟨0, _⟩ => rfl
      | ⟨1, _⟩ => rfl
      | ⟨2, _⟩ => rfl)
  unfold out0_2
  rw [Cert.KernelIdeal.Value.canon2_eq]
  show k0_pay10 (F := Ideal) _ _ _ _ _ _ _ _ _ (Cert.KernelIdeal.Value.ix2_0 (ix4 (0 : Fin 1) a h w)) = _
  rw [hy, Cert.KernelIdeal.Body.pay10_apply _ hJ']
  refine congrArg (fun z => z * Ideal.ofBits .f32 0x3E000000#32) ?_
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  · exact (drop2_apply _ a h w).trans (ld0_apply x0 a h w)
  · exact (drop2_apply _ a w (h.rev)).trans (ld1_apply x0 a w (h.rev))
  · exact (drop2_apply _ a (h.rev) (w.rev)).trans (ld2_apply x0 a (h.rev) (w.rev))
  · exact (drop2_apply _ a (w.rev) h).trans (ld3_apply x0 a (w.rev) h)
  · exact (drop2_apply _ a h (w.rev)).trans (ld4_apply x0 a h (w.rev))
  · exact (drop2_apply _ a w h).trans (ld5_apply x0 a w h)
  · exact (drop2_apply _ a (h.rev) w).trans (ld6_apply x0 a (h.rev) w)
  · exact ld7_apply x0 a w.rev h.rev

end Cert.KernelIdeal.Hand

end
-- ==== Proof.KernelArray.lean ====
/-
  From the blocks to the array.

  Output block (g, q) — group g, channels 64q … 64q + 63 — is written at the one grid point whose coordinates are
  (g, q). At that point the first window stages block (g, 0, q, 0, 0) of the regrouped argument, i.e. the eight
  images of group g at those channels, and the second window the whole table. So what the point writes back is the
  pooled array read through the output block, and since the 32 × 2 blocks tile [32, 128, 64, 64] the result array
  ends as the pooled array.
-/
import proofs.«162142_j28226525069638_1_alg».proof.Proof.KernelValue

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.D4Pool
open Cert.AntiDiagonal (IsExchange)

variable (m : (ℓ : Loc nD τ sig) → Buf (Elt Ideal) ℓ) (ρ : Dev nD → PrngReg)

/-- The printed index maps, decided over the 64 grid points: the first window follows the output on the group and
    channel axes and takes all eight images; the table's block never moves; the output's row and column block
    indices are zero; the group index is below 32 and the channel-half index below 2. -/
theorem idx_facts : ∀ t : Fin cfg0.N,
    win0_0.index t (0 : Fin 5) = win0_2.index t (0 : Fin 4) ∧ win0_0.index t (1 : Fin 5) = 0
    ∧ win0_0.index t (2 : Fin 5) = win0_2.index t (1 : Fin 4) ∧ win0_0.index t (3 : Fin 5) = 0
    ∧ win0_0.index t (4 : Fin 5) = 0
    ∧ win0_1.index t (0 : Fin 2) = 0 ∧ win0_1.index t (1 : Fin 2) = 0
    ∧ win0_2.index t (2 : Fin 4) = 0 ∧ win0_2.index t (3 : Fin 4) = 0
    ∧ win0_2.index t (0 : Fin 4) ≤ 31 ∧ win0_2.index t (1 : Fin 4) ≤ 1 :=
  (by decide +kernel : ∀ t : Fin grid0.N, _)

/-- Every output block is some point's. -/
theorem idx_onto : ∀ (q0 : Fin 32) (q1 : Fin 2), ∃ t : Fin cfg0.N, win0_2.index t = ![q0.val, q1.val, 0, 0] :=
  (by decide +kernel : ∀ (q0 : Fin 32) (q1 : Fin 2), ∃ t : Fin grid0.N, win0_2.index t = ![q0.val, q1.val, 0, 0])

/-- The table's block at any point is the exchange matrix. -/
theorem iblk1_exchange (c : Dev nD) (t : Fin cfg0.N) : IsExchange 64 (φ := .bf16) (iblk m c 1 t : Vec Ideal S64x64 .bf16) := by
  intro k w
  obtain ⟨-, -, -, -, -, e5, e6, -⟩ := idx_facts t
  unfold iblk
  rw [View.read_apply]
  show V m c main_v9 (((cfg0.win 1).blk t).view.emb (ix2 k w)) = _
  have he : ((cfg0.win 1).blk t).view.emb (ix2 k w) = ix2 k w := by
    funext e; apply Fin.ext
    match e with
    | ⟨0, _⟩ => show win0_1.index t (0 : Fin 2) * 64 + 1 * k.val = k.val; omega
    | ⟨1, _⟩ => show win0_1.index t (1 : Fin 2) * 64 + 1 * w.val = w.val; omega
  rw [he, V_v9]
  exact hostJ_exchange k w

/-- The first window's block at point `t`, at image `k` and block element (a, b, d), is the argument at image
    8g + k of the point's group g, channel 64q + a, pixel (b, d). -/
theorem iblk0_apply (c : Dev nD) (t : Fin cfg0.N) (k : Fin 8) (a b d : Fin 64) (g : Fin 32) (ch : Fin 128)
    (hg : g.val = win0_2.index t (0 : Fin 4)) (hch : ch.val = win0_2.index t (1 : Fin 4) * 64 + a.val) :
    (iblk m c 0 t : Vec Ideal S1x8x64x64x64 .f32) (ix5 (0 : Fin 1) k a b d)
      = (m ((c : Thread nD τ).loc main_arg0) : S256x128x64x64.Idx → EReal) (ix4 (img g k) ch b d) := by
  obtain ⟨e0, e1, e2, e3, e4, -⟩ := idx_facts t
  unfold iblk
  rw [View.read_apply]
  show V m c main_v0 (((cfg0.win 0).blk t).view.emb (ix5 (0 : Fin 1) k a b d)) = _
  rw [V_v0]
  refine shapeCast_apply (s := S256x128x64x64) (t := S32x8x128x64x64) _ _ _ (ix4 (img g k) ch b d) ?_
  rw [Shape.rowMajor_val_five, Shape.rowMajor_val_four]
  show (((8 * g.val + k.val) * 128 + ch.val) * 64 + b.val) * 64 + d.val
     = ((((win0_0.index t (0 : Fin 5) * 1 + 1 * 0) * 8 + (win0_0.index t (1 : Fin 5) * 8 + 1 * k.val)) * 128
          + (win0_0.index t (2 : Fin 5) * 64 + 1 * a.val)) * 64 + (win0_0.index t (3 : Fin 5) * 64 + 1 * b.val)) * 64
          + (win0_0.index t (4 : Fin 5) * 64 + 1 * d.val)
  omega

/-- WHAT POINT `t` WRITES BACK is the pooled array read through the point's output block. -/
theorem flushed_eq (c : Dev nD) (t : Fin cfg0.N) :
    (dats m 0 c).flushed 2 t
      = ((cfg0.win 2).blk t).view.read (Elt Ideal) (pooled (m ((c : Thread nD τ).loc main_arg0))) := by
  rw [Cert.KernelIdeal.Value.flushed2]
  obtain ⟨e0, e1, e2, e3, e4, e5, e6, e7, e8, e9, e10⟩ := idx_facts t
  funext j
  obtain ⟨j0, a, h, w, rfl⟩ : ∃ (j0 : Fin 1) (a h w : Fin 64), j = ix4 j0 a h w := ⟨j 0, j 1, j 2, j 3, eq_ix4 j⟩
  obtain rfl : j0 = 0 := Subsingleton.elim _ _
  have hg : win0_2.index t (0 : Fin 4) < 32 := by omega
  have hch : win0_2.index t (1 : Fin 4) * 64 + a.val < 128 := by have := a.isLt; omega
  show out0_2 (iblk m c 0 t) (iblk m c 1 t) (ix4 (0 : Fin 1) a h w)
      = pooled (m ((c : Thread nD τ).loc main_arg0)) (((cfg0.win 2).blk t).view.emb (ix4 (0 : Fin 1) a h w))
  have he : ((cfg0.win 2).blk t).view.emb (ix4 (0 : Fin 1) a h w)
      = ix4 (⟨win0_2.index t (0 : Fin 4), hg⟩ : Fin 32) (⟨win0_2.index t (1 : Fin 4) * 64 + a.val, hch⟩ : Fin 128) h w := by
    funext e; apply Fin.ext
    match e with
    | ⟨0, _⟩ => show win0_2.index t (0 : Fin 4) * 1 + 1 * 0 = win0_2.index t (0 : Fin 4); omega
    | ⟨1, _⟩ => show win0_2.index t (1 : Fin 4) * 64 + 1 * a.val = win0_2.index t (1 : Fin 4) * 64 + a.val; omega
    | ⟨2, _⟩ => show win0_2.index t (2 : Fin 4) * 64 + 1 * h.val = h.val; omega
    | ⟨3, _⟩ => show win0_2.index t (3 : Fin 4) * 64 + 1 * w.val = w.val; omega
  rw [he, out_apply (iblk m c 0 t) (iblk m c 1 t) (iblk1_exchange m c t) a h w]
  rw [iblk0_apply m c t (0 : Fin 8) a h w ⟨win0_2.index t (0 : Fin 4), hg⟩ ⟨win0_2.index t (1 : Fin 4) * 64 + a.val, hch⟩ rfl rfl,
    iblk0_apply m c t (1 : Fin 8) a w (h.rev) ⟨win0_2.index t (0 : Fin 4), hg⟩ ⟨win0_2.index t (1 : Fin 4) * 64 + a.val, hch⟩ rfl rfl,
    iblk0_apply m c t (2 : Fin 8) a (h.rev) (w.rev) ⟨win0_2.index t (0 : Fin 4), hg⟩ ⟨win0_2.index t (1 : Fin 4) * 64 + a.val, hch⟩ rfl rfl,
    iblk0_apply m c t (3 : Fin 8) a (w.rev) h ⟨win0_2.index t (0 : Fin 4), hg⟩ ⟨win0_2.index t (1 : Fin 4) * 64 + a.val, hch⟩ rfl rfl,
    iblk0_apply m c t (4 : Fin 8) a h (w.rev) ⟨win0_2.index t (0 : Fin 4), hg⟩ ⟨win0_2.index t (1 : Fin 4) * 64 + a.val, hch⟩ rfl rfl,
    iblk0_apply m c t (5 : Fin 8) a w h ⟨win0_2.index t (0 : Fin 4), hg⟩ ⟨win0_2.index t (1 : Fin 4) * 64 + a.val, hch⟩ rfl rfl,
    iblk0_apply m c t (6 : Fin 8) a (h.rev) w ⟨win0_2.index t (0 : Fin 4), hg⟩ ⟨win0_2.index t (1 : Fin 4) * 64 + a.val, hch⟩ rfl rfl,
    iblk0_apply m c t (7 : Fin 8) a (w.rev) (h.rev) ⟨win0_2.index t (0 : Fin 4), hg⟩ ⟨win0_2.index t (1 : Fin 4) * 64 + a.val, hch⟩ rfl rfl]
  rw [ofBits_eighth]
  rfl

/-- An index of the result is in point `t`'s block iff each coordinate is in the block's range on its axis. -/
theorem mem_blk (t : Fin cfg0.N) (i : S32x128x64x64.Idx) :
    i ∈ ((cfg0.win 2).blk t).view.set ↔ ∀ a : Fin 4, win0_2.index t a * S1x64x64x64.size a ≤ (i a).val
      ∧ (i a).val < win0_2.index t a * S1x64x64x64.size a + S1x64x64x64.size a := by
  show i ∈ ((View.whole main_v10).slice (win0_2.rect t)).set ↔ _
  rw [View.set_slice_whole, Rect.mem_set_unit]
  exact Iff.rfl

/-- The blocks tile the result: the element (g, ch, h, w) lies in the block of the point (g, ch / 64). -/
theorem cover (i : S32x128x64x64.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 64 := (i 2).isLt
  have hi3 : (i 3).val < 64 := (i 3).isLt
  obtain ⟨t, ht⟩ := idx_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- THE RESULT ARRAY after the run is the pooled array. -/
theorem final (c : Dev nD) : (dats m 0 c).arrAt 2 cfg0.N = pooled (m ((c : Thread nD τ).loc main_arg0)) :=
  (dats m 0 c).arrAt_eq_of_cover 2 (pooled (m ((c : Thread nD τ).loc main_arg0))) (fun t _ => flushed_eq m c t) cover

/-- The kernel program's run, read: the result at the pooled array of the argument, the argument unchanged. -/
theorem run : θ_run defs (onTc (τ := τ) (main (F := Ideal))) ⟨m, fun _ => 0, ρ⟩ fun r => ∀ c : Dev nD,
      r.2.mem ((c : Thread nD τ).loc main_v10) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Hand

end
-- ==== Proof.RefRun.lean ====
/-
  The reference program's run, read back.

  Its @main is a straight line once the functions it calls (a column reversal, a row reversal, and the three
  quarter-turn rotations, each a reversal and a transpose or two reversals) are opened at their calls: forty-three
  host operations. The array [256, 128, 64, 64] is viewed as [32, 8, 128, 64, 64]; slab k of a group is cut out and
  its unit axis dropped; slab k is put through the k-th symmetry of the square; the eight are added in order and
  the sum divided by the literal 8. `refOut` is that composition as one function of the argument array, and `run`
  says every weakly fair execution ends with the result buffer at `refOut` of the argument and the argument
  unchanged.
-/
import proofs.«162142_j28226525069638_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the called functions opened at their calls. -/
abbrev ops : List (HloOp τ sig (Elt F)) :=
  [ reshape main_arg0 main_v0 rfl shapeCasts_S256x128x64x64_S32x8x128x64x64,
    unary main_v0 main_v1 ((extractStridedSlice S32x1x128x64x64 ![0, 0, 0, 0, 0] · slices_S32x8x128x64x64_S32x1x128x64x64_0_0_0_0_0) : (⟨S32x8x128x64x64, .f32⟩ : BufTy).Contents (Elt F) → (⟨S32x1x128x64x64, .f32⟩ : BufTy).Contents (Elt F)),
    reshape main_v1 main_v2 rfl shapeCasts_S32x1x128x64x64_S32x128x64x64,
    unary main_v0 main_v3 ((extractStridedSlice S32x1x128x64x64 ![0, 1, 0, 0, 0] · slices_S32x8x128x64x64_S32x1x128x64x64_0_1_0_0_0) : (⟨S32x8x128x64x64, .f32⟩ : BufTy).Contents (Elt F) → (⟨S32x1x128x64x64, .f32⟩ : BufTy).Contents (Elt F)),
    reshape main_v3 main_v4 rfl shapeCasts_S32x1x128x64x64_S32x128x64x64,
    TRef.unary (.of main_v4) main_call0.call0.v0 (Host.reverse [3]),
    TRef.unary main_call0.call0.v0 main_call0.v1 (transpose S32x128x64x64 [0, 1, 3, 2] · transposes_S32x128x64x64_S32x128x64x64_0_1_3_2),
    binary main_v2 main_v5 main_v6 (addf : (⟨S32x128x64x64, .f32⟩ : BufTy).Contents (Elt F) → (⟨S32x128x64x64, .f32⟩ : BufTy).Contents (Elt F) → (⟨S32x128x64x64, .f32⟩ : BufTy).Contents (Elt F)),
    unary main_v0 main_v7 ((extractStridedSlice S32x1x128x64x64 ![0, 2, 0, 0, 0] · slices_S32x8x128x64x64_S32x1x128x64x64_0_2_0_0_0) : (⟨S32x8x128x64x64, .f32⟩ : BufTy).Contents (Elt F) → (⟨S32x1x128x64x64, .f32⟩ : BufTy).Contents (Elt F)),
    reshape main_v7 main_v8 rfl shapeCasts_S32x1x128x64x64_S32x128x64x64,
    TRef.unary (.of main_v8) main_call1.call0.v0 (Host.reverse [2]),
    TRef.unary main_call1.call0.v0 main_call1.call1.v0 (Host.reverse [3]),
    binary main_v6 main_v9 main_v10 (addf : (⟨S32x128x64x64, .f32⟩ : BufTy).Contents (Elt F) → (⟨S32x128x64x64, .f32⟩ : BufTy).Contents (Elt F) → (⟨S32x128x64x64, .f32⟩ : BufTy).Contents (Elt F)),
    unary main_v0 main_v11 ((extractStridedSlice S32x1x128x64x64 ![0, 3, 0, 0, 0] · slices_S32x8x128x64x64_S32x1x128x64x64_0_3_0_0_0) : (⟨S32x8x128x64x64, .f32⟩ : BufTy).Contents (Elt F) → (⟨S32x1x128x64x64, .f32⟩ : BufTy).Contents (Elt F)),
    reshape main_v11 main_v12 rfl shapeCasts_S32x1x128x64x64_S32x128x64x64,
    TRef.unary (.of main_v12) main_call2.v0 (transpose S32x128x64x64 [0, 1, 3, 2] · transposes_S32x128x64x64_S32x128x64x64_0_1_3_2),
    TRef.unary main_call2.v0 main_call2.call0.v0 (Host.reverse [3]),
    binary main_v10 main_v13 main_v14 (addf : (⟨S32x128x64x64, .f32⟩ : BufTy).Contents (Elt F) → (⟨S32x128x64x64, .f32⟩ : BufTy).Contents (Elt F) → (⟨S32x128x64x64, .f32⟩ : BufTy).Contents (Elt F)),
    unary main_v0 main_v15 ((extractStridedSlice S32x1x128x64x64 ![0, 4, 0, 0, 0] · slices_S32x8x128x64x64_S32x1x128x64x64_0_4_0_0_0) : (⟨S32x8x128x64x64, .f32⟩ : BufTy).Contents (Elt F) → (⟨S32x1x128x64x64, .f32⟩ : BufTy).Contents (Elt F)),
    reshape main_v15 main_v16 rfl shapeCasts_S32x1x128x64x64_S32x128x64x64,
    TRef.unary (.of main_v16) main_call3.v0 (Host.reverse [3]),
    binary main_v14 main_v17 main_v18 (addf : (⟨S32x128x64x64, .f32⟩ : BufTy).Contents (Elt F) → (⟨S32x128x64x64, .f32⟩ : BufTy).Contents (Elt F) → (⟨S32x128x64x64, .f32⟩ : BufTy).Contents (Elt F)),
    unary main_v0 main_v19 ((extractStridedSlice S32x1x128x64x64 ![0, 5, 0, 0, 0] · slices_S32x8x128x64x64_S32x1x128x64x64_0_5_0_0_0) : (⟨S32x8x128x64x64, .f32⟩ : BufTy).Contents (Elt F) → (⟨S32x1x128x64x64, .f32⟩ : BufTy).Contents (Elt F)),
    reshape main_v19 main_v20 rfl shapeCasts_S32x1x128x64x64_S32x128x64x64,
    TRef.unary (.of main_v20) main_call4.v0 (Host.reverse [3]),
    TRef.unary (.of main_v21) main_call5.call0.v0 (Host.reverse [3]),
    TRef.unary main_call5.call0.v0 main_call5.v1 (transpose S32x128x64x64 [0, 1, 3, 2] · transposes_S32x128x64x64_S32x128x64x64_0_1_3_2),
    binary main_v18 main_v22 main_v23 (addf : (⟨S32x128x64x64, .f32⟩ : BufTy).Contents (Elt F) → (⟨S32x128x64x64, .f32⟩ : BufTy).Contents (Elt F) → (⟨S32x128x64x64, .f32⟩ : BufTy).Contents (Elt F)),
    unary main_v0 main_v24 ((extractStridedSlice S32x1x128x64x64 ![0, 6, 0, 0, 0] · slices_S32x8x128x64x64_S32x1x128x64x64_0_6_0_0_0) : (⟨S32x8x128x64x64, .f32⟩ : BufTy).Contents (Elt F) → (⟨S32x1x128x64x64, .f32⟩ : BufTy).Contents (Elt F)),
    reshape main_v24 main_v25 rfl shapeCasts_S32x1x128x64x64_S32x128x64x64,
    TRef.unary (.of main_v25) main_call6.v0 (Host.reverse [3]),
    TRef.unary (.of main_v26) main_call7.call0.v0 (Host.reverse [2]),
    TRef.unary main_call7.call0.v0 main_call7.call1.v0 (Host.reverse [3]),
    binary main_v23 main_v27 main_v28 (addf : (⟨S32x128x64x64, .f32⟩ : BufTy).Contents (Elt F) → (⟨S32x128x64x64, .f32⟩ : BufTy).Contents (Elt F) → (⟨S32x128x64x64, .f32⟩ : BufTy).Contents (Elt F)),
    unary main_v0 main_v29 ((extractStridedSlice S32x1x128x64x64 ![0, 7, 0, 0, 0] · slices_S32x8x128x64x64_S32x1x128x64x64_0_7_0_0_0) : (⟨S32x8x128x64x64, .f32⟩ : BufTy).Contents (Elt F) → (⟨S32x1x128x64x64, .f32⟩ : BufTy).Contents (Elt F)),
    reshape main_v29 main_v30 rfl shapeCasts_S32x1x128x64x64_S32x128x64x64,
    TRef.unary (.of main_v30) main_call8.v0 (Host.reverse [3]),
    TRef.unary (.of main_v31) main_call9.v0 (transpose S32x128x64x64 [0, 1, 3, 2] · transposes_S32x128x64x64_S32x128x64x64_0_1_3_2),
    TRef.unary main_call9.v0 main_call9.call0.v0 (Host.reverse [3]),
    binary main_v28 main_v32 main_v33 (addf : (⟨S32x128x64x64, .f32⟩ : BufTy).Contents (Elt F) → (⟨S32x128x64x64, .f32⟩ : BufTy).Contents (Elt F) → (⟨S32x128x64x64, .f32⟩ : BufTy).Contents (Elt F)),
    nullary main_cst (constant S_ .f32 0x41000000#32),
    unary main_cst main_v34 (broadcastInDim S32x128x64x64 ![] bcast_S_S32x128x64x64 : (⟨S_, .f32⟩ : BufTy).Contents (Elt F) → (⟨S32x128x64x64, .f32⟩ : BufTy).Contents (Elt F)),
    binary main_v33 main_v34 main_v35 (Host.divf : (⟨S32x128x64x64, .f32⟩ : BufTy).Contents (Elt F) → (⟨S32x128x64x64, .f32⟩ : BufTy).Contents (Elt F) → (⟨S32x128x64x64, .f32⟩ : BufTy).Contents (Elt F)) ]

set_option maxRecDepth 4096 in
/-- @main is that straight line. -/
theorem main_eq (c : Dev nD) : main (F := F) c = seq ops := by
  simp only [main, fn_rot90.body, fn_rot90_0.body, fn_rot90_2.body, fn_flip.body, fn_flip_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., nullary_bufs_sub .., unary_bufs_sub .., binary_bufs_sub ..⟩

/-! ## The result as one function of the argument -/

/-- The column reversal, the row reversal and the transpose of the last two axes of a [32, 128, 64, 64] array. -/
def flipW (a : (⟨S32x128x64x64, .f32⟩ : BufTy).Contents (Elt F)) : (⟨S32x128x64x64, .f32⟩ : BufTy).Contents (Elt F) :=
  Host.reverse [3] a
def flipH (a : (⟨S32x128x64x64, .f32⟩ : BufTy).Contents (Elt F)) : (⟨S32x128x64x64, .f32⟩ : BufTy).Contents (Elt F) :=
  Host.reverse [2] a
def swapHW (a : (⟨S32x128x64x64, .f32⟩ : BufTy).Contents (Elt F)) : (⟨S32x128x64x64, .f32⟩ : BufTy).Contents (Elt F) :=
  transpose S32x128x64x64 [0, 1, 3, 2] a transposes_S32x128x64x64_S32x128x64x64_0_1_3_2

/-- Slab k of every group: the slice [:, k:k+1] with its unit axis dropped. -/
def slab0 (x5 : (⟨S32x8x128x64x64, .f32⟩ : BufTy).Contents (Elt F)) : (⟨S32x128x64x64, .f32⟩ : BufTy).Contents (Elt F) :=
  shapeCast S32x128x64x64 (extractStridedSlice S32x1x128x64x64 ![0, 0, 0, 0, 0] x5 slices_S32x8x128x64x64_S32x1x128x64x64_0_0_0_0_0) shapeCasts_S32x1x128x64x64_S32x128x64x64
def slab1 (x5 : (⟨S32x8x128x64x64, .f32⟩ : BufTy).Contents (Elt F)) : (⟨S32x128x64x64, .f32⟩ : BufTy).Contents (Elt F) :=
  shapeCast S32x128x64x64 (extractStridedSlice S32x1x128x64x64 ![0, 1, 0, 0, 0] x5 slices_S32x8x128x64x64_S32x1x128x64x64_0_1_0_0_0) shapeCasts_S32x1x128x64x64_S32x128x64x64
def slab2 (x5 : (⟨S32x8x128x64x64, .f32⟩ : BufTy).Contents (Elt F)) : (⟨S32x128x64x64, .f32⟩ : BufTy).Contents (Elt F) :=
  shapeCast S32x128x64x64 (extractStridedSlice S32x1x128x64x64 ![0, 2, 0, 0, 0] x5 slices_S32x8x128x64x64_S32x1x128x64x64_0_2_0_0_0) shapeCasts_S32x1x128x64x64_S32x128x64x64
def slab3 (x5 : (⟨S32x8x128x64x64, .f32⟩ : BufTy).Contents (Elt F)) : (⟨S32x128x64x64, .f32⟩ : BufTy).Contents (Elt F) :=
  shapeCast S32x128x64x64 (extractStridedSlice S32x1x128x64x64 ![0, 3, 0, 0, 0] x5 slices_S32x8x128x64x64_S32x1x128x64x64_0_3_0_0_0) shapeCasts_S32x1x128x64x64_S32x128x64x64
def slab4 (x5 : (⟨S32x8x128x64x64, .f32⟩ : BufTy).Contents (Elt F)) : (⟨S32x128x64x64, .f32⟩ : BufTy).Contents (Elt F) :=
  shapeCast S32x128x64x64 (extractStridedSlice S32x1x128x64x64 ![0, 4, 0, 0, 0] x5 slices_S32x8x128x64x64_S32x1x128x64x64_0_4_0_0_0) shapeCasts_S32x1x128x64x64_S32x128x64x64
def slab5 (x5 : (⟨S32x8x128x64x64, .f32⟩ : BufTy).Contents (Elt F)) : (⟨S32x128x64x64, .f32⟩ : BufTy).Contents (Elt F) :=
  shapeCast S32x128x64x64 (extractStridedSlice S32x1x128x64x64 ![0, 5, 0, 0, 0] x5 slices_S32x8x128x64x64_S32x1x128x64x64_0_5_0_0_0) shapeCasts_S32x1x128x64x64_S32x128x64x64
def slab6 (x5 : (⟨S32x8x128x64x64, .f32⟩ : BufTy).Contents (Elt F)) : (⟨S32x128x64x64, .f32⟩ : BufTy).Contents (Elt F) :=
  shapeCast S32x128x64x64 (extractStridedSlice S32x1x128x64x64 ![0, 6, 0, 0, 0] x5 slices_S32x8x128x64x64_S32x1x128x64x64_0_6_0_0_0) shapeCasts_S32x1x128x64x64_S32x128x64x64
def slab7 (x5 : (⟨S32x8x128x64x64, .f32⟩ : BufTy).Contents (Elt F)) : (⟨S32x128x64x64, .f32⟩ : BufTy).Contents (Elt F) :=
  shapeCast S32x128x64x64 (extractStridedSlice S32x1x128x64x64 ![0, 7, 0, 0, 0] x5 slices_S32x8x128x64x64_S32x1x128x64x64_0_7_0_0_0) shapeCasts_S32x1x128x64x64_S32x128x64x64

/-- The eight slabs, each through its symmetry, added in order. -/
def refSum (x5 : (⟨S32x8x128x64x64, .f32⟩ : BufTy).Contents (Elt F)) : (⟨S32x128x64x64, .f32⟩ : BufTy).Contents (Elt F) :=
  addf (addf (addf (addf (addf (addf (addf (slab0 x5) (swapHW (flipW (slab1 x5)))) (flipW (flipH (slab2 x5))))
    (flipW (swapHW (slab3 x5)))) (flipW (slab4 x5))) (swapHW (flipW (flipW (slab5 x5)))))
    (flipW (flipH (flipW (slab6 x5))))) (flipW (swapHW (flipW (slab7 x5))))

/-- The reference's result: the sum over the regrouped argument, divided by the literal 8. -/
def refOut (x : (⟨S256x128x64x64, .f32⟩ : BufTy).Contents (Elt F)) : (⟨S32x128x64x64, .f32⟩ : BufTy).Contents (Elt F) :=
  Host.divf (refSum (shapeCast S32x8x128x64x64 x shapeCasts_S256x128x64x64_S32x8x128x64x64))
    (broadcastInDim S32x128x64x64 ![] bcast_S_S32x128x64x64 (constant S_ .f32 0x41000000#32))

set_option maxRecDepth 8192 in
/-- The fold of the operations at the result buffer is `refOut` of the argument. -/
theorem out_eq (V : Valuation τ sig (Elt F)) :
    after ops V (main_v35 : DevRef τ sig) = refOut (V (main_arg0 : DevRef τ sig)) := by
  simp only [after_cons, after_nil]
  rfl

set_option maxRecDepth 8192 in
/-- No operation writes the argument. -/
theorem arg0_eq (V : Valuation τ sig (Elt F)) :
    after ops V (main_arg0 : DevRef τ sig) = V (main_arg0 : DevRef τ sig) := by
  simp only [after_cons, after_nil]
  rfl

/-- On every device, from any memory with zero counters: every weakly fair execution of @main terminates with the
    result at `refOut` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v35).trans (out_eq _), (h c main_arg0).trans (arg0_eq _)⟩)
    (run_seq scopedRefs_eq scopedSems_eq defs main (fun _ => ops) main_eq (fun _ => ops_sub) m ρ)

end Cert.ReferenceIdeal.Hand

end
-- ==== Proof.RefValue.lean ====
/-
  The reference's result, read at one element, is the pooled array.

  Each host operation moves an element without changing it: the regrouping [256, …] → [32, 8, …] sends (g, k, …)
  to image 8g + k; the slice and the dropped unit axis pick slab k; a reversal reads the mirrored coordinate; the
  transpose exchanges row and column. Two reversals of one axis in a row cancel. What is left is the orbit sum in
  the reference's own order, and division by the literal 8 is multiplication by one eighth.
-/
import proofs.«162142_j28226525069638_1_alg».proof.Proof.RefRun
import proofs.«162142_j28226525069638_1_alg».proof.Proof.Pooled
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx
open Cert.D4Pool

variable {F : FTy → Type} [FloatOps F]

/-- The column reversal at an element. -/
theorem flipW_apply (a : (⟨S32x128x64x64, .f32⟩ : BufTy).Contents (Elt F)) (g : Fin 32) (ch : Fin 128) (h w : Fin 64) :
    flipW a (ix4 g ch h w) = a (ix4 g ch h w.rev) := by
  unfold flipW Host.reverse
  refine congrArg a (funext fun d => ?_)
  match d with
  | ⟨0, _⟩ => rfl
  | ⟨1, _⟩ => rfl
  | ⟨2, _⟩ => rfl
  | ⟨3, _⟩ => rfl

/-- The row reversal at an element. -/
theorem flipH_apply (a : (⟨S32x128x64x64, .f32⟩ : BufTy).Contents (Elt F)) (g : Fin 32) (ch : Fin 128) (h w : Fin 64) :
    flipH a (ix4 g ch h w) = a (ix4 g ch h.rev w) := by
  unfold flipH Host.reverse
  refine congrArg a (funext fun d => ?_)
  match d with
  | ⟨0, _⟩ => rfl
  | ⟨1, _⟩ => rfl
  | ⟨2, _⟩ => rfl
  | ⟨3, _⟩ => rfl

/-- The transpose of the last two axes at an element. -/
theorem swapHW_apply (a : (⟨S32x128x64x64, .f32⟩ : BufTy).Contents (Elt F)) (g : Fin 32) (ch : Fin 128) (h w : Fin 64) :
    swapHW a (ix4 g ch h w) = a (ix4 g ch w h) := by
  unfold swapHW
  refine transpose_apply _ _ _ (ix4 g ch h w) (ix4 g ch w h) fun b => ?_
  match b with
  | ⟨0, _⟩ => rfl
  | ⟨1, _⟩ => rfl
  | ⟨2, _⟩ => rfl
  | ⟨3, _⟩ => rfl

theorem slab0_apply (x5 : (⟨S32x8x128x64x64, .f32⟩ : BufTy).Contents (Elt F)) (g : Fin 32) (ch : Fin 128) (h w : Fin 64) :
    slab0 x5 (ix4 g ch h w) = x5 (ix5 g (0 : Fin 8) ch h w) := by
  unfold slab0
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (0 : Fin 8) ch h w) fun a => ?_
  match a with
  | ⟨0, _⟩ => show g.val = 0 + g.val; omega
  | ⟨1, _⟩ => show (0 : Nat) = 0 + 0; rfl
  | ⟨2, _⟩ => show ch.val = 0 + ch.val; omega
  | ⟨3, _⟩ => show h.val = 0 + h.val; omega
  | ⟨4, _⟩ => show w.val = 0 + w.val; omega

theorem slab1_apply (x5 : (⟨S32x8x128x64x64, .f32⟩ : BufTy).Contents (Elt F)) (g : Fin 32) (ch : Fin 128) (h w : Fin 64) :
    slab1 x5 (ix4 g ch h w) = x5 (ix5 g (1 : Fin 8) ch h w) := by
  unfold slab1
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (1 : Fin 8) ch h w) fun a => ?_
  match a with
  | ⟨0, _⟩ => show g.val = 0 + g.val; omega
  | ⟨1, _⟩ => show (1 : Nat) = 1 + 0; rfl
  | ⟨2, _⟩ => show ch.val = 0 + ch.val; omega
  | ⟨3, _⟩ => show h.val = 0 + h.val; omega
  | ⟨4, _⟩ => show w.val = 0 + w.val; omega

theorem slab2_apply (x5 : (⟨S32x8x128x64x64, .f32⟩ : BufTy).Contents (Elt F)) (g : Fin 32) (ch : Fin 128) (h w : Fin 64) :
    slab2 x5 (ix4 g ch h w) = x5 (ix5 g (2 : Fin 8) ch h w) := by
  unfold slab2
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (2 : Fin 8) ch h w) fun a => ?_
  match a with
  | ⟨0, _⟩ => show g.val = 0 + g.val; omega
  | ⟨1, _⟩ => show (2 : Nat) = 2 + 0; rfl
  | ⟨2, _⟩ => show ch.val = 0 + ch.val; omega
  | ⟨3, _⟩ => show h.val = 0 + h.val; omega
  | ⟨4, _⟩ => show w.val = 0 + w.val; omega

theorem slab3_apply (x5 : (⟨S32x8x128x64x64, .f32⟩ : BufTy).Contents (Elt F)) (g : Fin 32) (ch : Fin 128) (h w : Fin 64) :
    slab3 x5 (ix4 g ch h w) = x5 (ix5 g (3 : Fin 8) ch h w) := by
  unfold slab3
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (3 : Fin 8) ch h w) fun a => ?_
  match a with
  | ⟨0, _⟩ => show g.val = 0 + g.val; omega
  | ⟨1, _⟩ => show (3 : Nat) = 3 + 0; rfl
  | ⟨2, _⟩ => show ch.val = 0 + ch.val; omega
  | ⟨3, _⟩ => show h.val = 0 + h.val; omega
  | ⟨4, _⟩ => show w.val = 0 + w.val; omega

theorem slab4_apply (x5 : (⟨S32x8x128x64x64, .f32⟩ : BufTy).Contents (Elt F)) (g : Fin 32) (ch : Fin 128) (h w : Fin 64) :
    slab4 x5 (ix4 g ch h w) = x5 (ix5 g (4 : Fin 8) ch h w) := by
  unfold slab4
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (4 : Fin 8) ch h w) fun a => ?_
  match a with
  | ⟨0, _⟩ => show g.val = 0 + g.val; omega
  | ⟨1, _⟩ => show (4 : Nat) = 4 + 0; rfl
  | ⟨2, _⟩ => show ch.val = 0 + ch.val; omega
  | ⟨3, _⟩ => show h.val = 0 + h.val; omega
  | ⟨4, _⟩ => show w.val = 0 + w.val; omega

theorem slab5_apply (x5 : (⟨S32x8x128x64x64, .f32⟩ : BufTy).Contents (Elt F)) (g : Fin 32) (ch : Fin 128) (h w : Fin 64) :
    slab5 x5 (ix4 g ch h w) = x5 (ix5 g (5 : Fin 8) ch h w) := by
  unfold slab5
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (5 : Fin 8) ch h w) fun a => ?_
  match a with
  | ⟨0, _⟩ => show g.val = 0 + g.val; omega
  | ⟨1, _⟩ => show (5 : Nat) = 5 + 0; rfl
  | ⟨2, _⟩ => show ch.val = 0 + ch.val; omega
  | ⟨3, _⟩ => show h.val = 0 + h.val; omega
  | ⟨4, _⟩ => show w.val = 0 + w.val; omega

theorem slab6_apply (x5 : (⟨S32x8x128x64x64, .f32⟩ : BufTy).Contents (Elt F)) (g : Fin 32) (ch : Fin 128) (h w : Fin 64) :
    slab6 x5 (ix4 g ch h w) = x5 (ix5 g (6 : Fin 8) ch h w) := by
  unfold slab6
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (6 : Fin 8) ch h w) fun a => ?_
  match a with
  | ⟨0, _⟩ => show g.val = 0 + g.val; omega
  | ⟨1, _⟩ => show (6 : Nat) = 6 + 0; rfl
  | ⟨2, _⟩ => show ch.val = 0 + ch.val; omega
  | ⟨3, _⟩ => show h.val = 0 + h.val; omega
  | ⟨4, _⟩ => show w.val = 0 + w.val; omega

theorem slab7_apply (x5 : (⟨S32x8x128x64x64, .f32⟩ : BufTy).Contents (Elt F)) (g : Fin 32) (ch : Fin 128) (h w : Fin 64) :
    slab7 x5 (ix4 g ch h w) = x5 (ix5 g (7 : Fin 8) ch h w) := by
  unfold slab7
  refine (shapeCast_apply _ _ (ix4 g ch h w) (ix5 g (0 : Fin 1) ch h w) ?_).trans ?_
  · rw [Shape.rowMajor_val_five, Shape.rowMajor_val_four]
    show (((g.val * 1 + 0) * 128 + ch.val) * 64 + h.val) * 64 + w.val = ((g.val * 128 + ch.val) * 64 + h.val) * 64 + w.val
    omega
  refine extractStridedSlice_apply _ _ _ (ix5 g (0 : Fin 1) ch h w) (ix5 g (7 : Fin 8) ch h w) fun a => ?_
  match a with
  | ⟨0, _⟩ => show g.val = 0 + g.val; omega
  | ⟨1, _⟩ => show (7 : Nat) = 7 + 0; rfl
  | ⟨2, _⟩ => show ch.val = 0 + ch.val; omega
  | ⟨3, _⟩ => show h.val = 0 + h.val; omega
  | ⟨4, _⟩ => show w.val = 0 + w.val; omega

/-- The regrouped argument at (g, k, …) is image 8g + k. -/
theorem regroup_apply (x : (⟨S256x128x64x64, .f32⟩ : BufTy).Contents (Elt F)) (g : Fin 32) (k : Fin 8) (ch : Fin 128) (h w : Fin 64) :
    shapeCast S32x8x128x64x64 x shapeCasts_S256x128x64x64_S32x8x128x64x64 (ix5 g k ch h w) = x (ix4 (img g k) ch h w) := by
  refine shapeCast_apply _ _ _ _ ?_
  rw [Shape.rowMajor_val_five, Shape.rowMajor_val_four]
  show (((8 * g.val + k.val) * 128 + ch.val) * 64 + h.val) * 64 + w.val = ((((g.val * 8 + k.val) * 128 + ch.val) * 64 + h.val) * 64 + w.val)
  omega

/-- THE REFERENCE'S RESULT IS THE POOLED ARRAY. -/
theorem refOut_eq (x : (⟨S256x128x64x64, .f32⟩ : BufTy).Contents (Elt Ideal)) : refOut (F := Ideal) x = pooled x := by
  funext i
  obtain ⟨g, ch, h, w, rfl⟩ : ∃ (g : Fin 32) (ch : Fin 128) (h w : Fin 64), i = ix4 g ch h w :=
    ⟨i 0, i 1, i 2, i 3, eq_ix4 i⟩
  unfold refOut refSum
  show Ideal.div _ (Ideal.ofBits .f32 0x41000000#32) = _
  rw [div_eight]
  simp only [addf_apply, swapHW_apply, flipW_apply, flipH_apply, slab0_apply, slab1_apply, slab2_apply, slab3_apply,
    slab4_apply, slab5_apply, slab6_apply, slab7_apply, Fin.rev_rev]
  rw [regroup_apply x g 0 ch h w, regroup_apply x g 1 ch w h.rev, regroup_apply x g 2 ch h.rev w.rev,
    regroup_apply x g 3 ch w.rev h, regroup_apply x g 4 ch h w.rev, regroup_apply x g 5 ch w h,
    regroup_apply x g 6 ch h.rev w, regroup_apply x g 7 ch w.rev h.rev]
  rfl

end Cert.ReferenceIdeal.Hand

end
-- ==== Proof.lean ====
/-
  Pooling over the eight symmetries of the square: the kernel against its reference, on the extended reals.

  The argument x is [256, 128, 64, 64]: 32 groups of 8 images. Image k of a group carries the k-th symmetry of the
  square (rotations by 0, 90, 180, 270 degrees, then the same four after a mirror); both programs undo the
  symmetry of each image and average the eight:
    out[g, ch, h, w] = 1/8 · ( x[8g](h, w) + x[8g+1](w, 63-h) + x[8g+2](63-h, 63-w) + x[8g+3](63-w, h)
                             + x[8g+4](h, 63-w) + x[8g+5](w, h) + x[8g+6](63-h, w) + x[8g+7](63-w, 63-h) ).
  The reference reverses axes and transposes on the host and divides by 8. The kernel has no reversal: it
  multiplies a flattened slab by the 64 × 64 exchange matrix (ones on the anti-diagonal, built on the host from two
  iotas) and transposes; on the extended reals a · 0 = 0 and a · 1 = a for every a, so that product IS the column
  reversal, and the rounding to bf16 before it is the identity. Both sides add the eight terms in the same order,
  and x / 8 = x · (1/8) on every extended real, so the two results are one function of x (`Cert.D4Pool.pooled`):
  nothing is asked of the entries of x, the precondition is not used.

  The parts: Proof/Pooled.lean (the function), Proof/LibPlainMatmul.lean and Proof/LibExchangeMatmul.lean (a
  product with the exchange matrix at an entry), Proof/BodyValue.lean (the body at an element),
  Proof/KernelValue.lean and Proof/KernelArray.lean (the host's table, the blocks, the result array),
  Proof/RefRun.lean and Proof/RefValue.lean (the reference's run and its result at an element).
-/
import proofs.«162142_j28226525069638_1_alg».proof.Defs
import proofs.«162142_j28226525069638_1_alg».proof.Proof.Gen.Kernel
import proofs.«162142_j28226525069638_1_alg».proof.Proof.Gen.Kernel.Skeleton
import proofs.«162142_j28226525069638_1_alg».proof.Proof.Gen.Kernel.Launch
import proofs.«162142_j28226525069638_1_alg».proof.Proof.Gen.Kernel.Points
import proofs.«162142_j28226525069638_1_alg».proof.Proof.Gen.Kernel.Frame
import proofs.«162142_j28226525069638_1_alg».proof.Proof.Gen.KernelIdeal
import proofs.«162142_j28226525069638_1_alg».proof.Proof.Gen.KernelIdeal.Skeleton
import proofs.«162142_j28226525069638_1_alg».proof.Proof.Gen.KernelIdeal.Launch
import proofs.«162142_j28226525069638_1_alg».proof.Proof.Gen.KernelIdeal.Points
import proofs.«162142_j28226525069638_1_alg».proof.Proof.Gen.KernelIdeal.Frame
import proofs.«162142_j28226525069638_1_alg».proof.Proof.Gen.KernelIdeal.Value
import proofs.«162142_j28226525069638_1_alg».proof.Proof.Gen.ReferenceIdeal
import proofs.«162142_j28226525069638_1_alg».proof.Proof.Gen.Pre_finite_inputs
import proofs.«162142_j28226525069638_1_alg».proof.Proof.KernelArray
import proofs.«162142_j28226525069638_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its argument as it was. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its argument as it was: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Nothing was rewritten between the kernel and its reading on the extended reals. -/
theorem preserves : Cert.preserves_Kernel_KernelIdeal := trivial

/-- From memories agreeing on the argument, both programs end with the pooled array of the argument. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.refOut_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
